-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S64 : Shape := ⟨1, ![64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x4096 .f32) (main_arg1 : FVec F S64x4096 .f32) (main_arg2 : FVec F S64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S64 : Shape := ⟨1, ![64]⟩
abbrev S1x64 : Shape := ⟨2, ![1, 64]⟩
abbrev S4096x64 : Shape := ⟨2, ![4096, 64]⟩
abbrev S512x4096 : Shape := ⟨2, ![512, 4096]⟩
abbrev S512x64 : Shape := ⟨2, ![512, 64]⟩
abbrev S256x4096 : Shape := ⟨2, ![256, 4096]⟩
abbrev S256x64 : Shape := ⟨2, ![256, 64]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x4096_S256x4096_0_0 : ∀ a, (![0, 0] : Fin 2 → Nat) a + S256x4096.size a ≤ S512x4096.size a
  h_S256x4096 : 0 < S256x4096.numel
  broadcasts_S1x64_S256x64 : S1x64.Broadcasts S256x64
  inb_S512x64_S256x64_0_0 : ∀ a, (![0, 0] : Fin 2 → Nat) a + S256x64.size a ≤ S512x64.size a
  h_S256x64 : 0 < S256x64.numel
  inb_S512x4096_S256x4096_256_0 : ∀ a, (![256, 0] : Fin 2 → Nat) a + S256x4096.size a ≤ S512x4096.size a
  inb_S512x64_S256x64_256_0 : ∀ a, (![256, 0] : Fin 2 → Nat) a + S256x64.size a ≤ S512x64.size a
  dot_S256x4096_S64x4096_S256x64_1_1_0_0_n_n_wf : DotDims.WF S256x4096 S64x4096 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S4096x64, .f32⟩
  | .hbm, ⟨5, _⟩ => ⟨S1x64, .f32⟩
  | .hbm, ⟨6, _⟩ => ⟨S4096x64, .f32⟩
  | .hbm, ⟨7, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.AffineRows.lean ====
/-
  The affine map on rows, `y = x·wᵀ + β`, over the extended reals.

  For a matrix `x` of `R` rows and `K` columns, a matrix `w` of `N` rows and `K` columns and a vector `β` of `N`
  entries, entry `(r, n)` of the result is `Σ_k x[r,k] · w[n,k] + β[n]`: row `r` of `x` paired with row `n` of `w`.
  The entry depends on row `r` of `x` alone, on row `n` of `w` alone and on `β[n]` alone (`entry_congr`), so the
  result for a band of consecutive rows of `x` is the same band of the result for the whole of `x` (`rows_band`) —
  which is all that cutting the rows into blocks, and a block into halves, uses. Both sides of every equation here sum
  the same products over the same index in the same order, so no law of the extended reals enters and nothing needs the
  entries to be finite.
-/
import Idealize.ShloMosaic.PureOps.Ideal
import Idealize.ShloMosaic.Lib.ValueIdx

noncomputable section

open scoped BigOperators

namespace Cert.AffineRows

open Idealize.ShloMosaic Idealize.ShloMosaic.ValueIdx

variable {R R' K N : Nat}

/-- Entry `(r, n)` of `x·wᵀ + β`: row `r` of `x` against row `n` of `w`, summed over the columns, plus `β[n]`. -/
def entry (x : (⟨2, ![R, K]⟩ : Shape).Idx → EReal) (w : (⟨2, ![N, K]⟩ : Shape).Idx → EReal) (β : Fin N → EReal)
    (r : Fin R) (n : Fin N) : EReal :=
  (∑ k : Fin K, x (ix2 r k) * w (ix2 n k)) + β n

/-- `x·wᵀ + β` as an array of `R` rows and `N` columns. -/
def rows (x : (⟨2, ![R, K]⟩ : Shape).Idx → EReal) (w : (⟨2, ![N, K]⟩ : Shape).Idx → EReal) (β : Fin N → EReal) :
    (⟨2, ![R, N]⟩ : Shape).Idx → EReal :=
  fun i => entry x w β ⟨(i 0).val, idx2_lt0 i⟩ ⟨(i 1).val, idx2_lt1 i⟩

/-- The array at `(r, n)` is the entry. -/
theorem rows_ix2 (x : (⟨2, ![R, K]⟩ : Shape).Idx → EReal) (w : (⟨2, ![N, K]⟩ : Shape).Idx → EReal) (β : Fin N → EReal)
    (r : Fin R) (n : Fin N) : rows x w β (ix2 r n) = entry x w β r n := rfl

/-- An entry depends only on its row of `x`, its row of `w` and its entry of `β`. -/
theorem entry_congr {x : (⟨2, ![R, K]⟩ : Shape).Idx → EReal} {x' : (⟨2, ![R', K]⟩ : Shape).Idx → EReal}
    {w w' : (⟨2, ![N, K]⟩ : Shape).Idx → EReal} {β β' : Fin N → EReal} {r : Fin R} {r' : Fin R'} {n n' : Fin N}
    (hx : ∀ k : Fin K, x (ix2 r k) = x' (ix2 r' k)) (hw : ∀ k : Fin K, w (ix2 n k) = w' (ix2 n' k))
    (hβ : β n = β' n') : entry x w β r n = entry x' w' β' r' n' := by
  unfold entry
  rw [hβ]
  exact congrArg (· + β' n') (Finset.sum_congr rfl fun k _ => by rw [hx k, hw k])

/-- A BAND OF ROWS: when `x'` holds rows `o, o + 1, …` of `x`, the result for `x'` holds the same rows of the result
    for `x`. -/
theorem rows_band (x : (⟨2, ![R, K]⟩ : Shape).Idx → EReal) (x' : (⟨2, ![R', K]⟩ : Shape).Idx → EReal)
    (w : (⟨2, ![N, K]⟩ : Shape).Idx → EReal) (β : Fin N → EReal) (o : Nat) (p : Fin R') (h : o + p.val < R)
    (hx : ∀ k : Fin K, x' (ix2 p k) = x (ix2 ⟨o + p.val, h⟩ k)) (n : Fin N) :
    rows x' w β (ix2 p n) = rows x w β (ix2 ⟨o + p.val, h⟩ n) :=
  entry_congr hx (fun _ => rfl) rfl

end Cert.AffineRows

end
-- ==== Proof.ReferenceRows.lean ====
/-
  The reference is the affine map on rows.

  The reference transposes the weight, multiplies, broadcasts the bias down the rows and adds. Read at entry `(r, n)`:
  the product's entry is `Σ_k input[r,k] · weightᵀ[k,n]`, and `weightᵀ[k,n] = weight[n,k]`; the bias broadcast twice
  reads `bias[n]`. So the result is `Σ_k input[r,k] · weight[n,k] + bias[n]`, the entry of `AffineRows.rows` — term by
  term, with the sum over the same index in the same order.
-/
import proofs.«162816_g17729624998151_cont_sun_m_218_23_alg».proof.Proof.Gen.ReferenceIdeal.Read
import proofs.«162816_g17729624998151_cont_sun_m_218_23_alg».proof.Proof.AffineRows

noncomputable section

open scoped BigOperators

namespace Cert.ReferenceIdeal.Hand

open Cert.ReferenceIdeal Cert.ReferenceIdeal.Read Idealize.ShloMosaic Idealize.ShloMosaic.ValueIdx

/-- The reference's last stage, as a function of the three arguments, is `input·weightᵀ + bias` entry by entry. -/
theorem reference_rows (x0 : S4096x4096.Idx → EReal) (x1 : S64x4096.Idx → EReal) (x2 : S64.Idx → EReal) :
    val_main_v4 (F := Ideal) x0 x1 x2 = Cert.AffineRows.rows x0 x1 (fun n => x2 (ix1 n)) := by
  funext i
  obtain ⟨r, n, rfl⟩ : ∃ (r : Fin 4096) (n : Fin 64), i = ix2 r n := ⟨i 0, i 1, eq_ix2 i⟩
  rw [val_main_v4_apply, val_main_v1_apply, val_main_v3_apply, val_main_v2_apply, Cert.AffineRows.rows_ix2]
  unfold Cert.AffineRows.entry
  show (∑ k : Fin 4096, x0 (lidx_main_v1 (ix2 r n) k) * val_main_v0 (F := Ideal) x1 (ridx_main_v1 (ix2 r n) k))
      + x2 (idx_main_v2 (idx_main_v3 (ix2 r n))) = _
  refine congrArg₂ (· + ·) (Finset.sum_congr rfl fun k _ => ?_) (congrArg x2 ?_)
  · rw [val_main_v0_apply]
    refine congrArg₂ (· * ·) (congrArg x0 ?_) (congrArg x1 ?_)
    · funext a; match a with | ⟨0, _⟩ => rfl | ⟨1, _⟩ => rfl
    · funext a; match a with | ⟨0, _⟩ => rfl | ⟨1, _⟩ => rfl
  · funext a; match a with | ⟨0, _⟩ => rfl

end Cert.ReferenceIdeal.Hand

end
-- ==== Proof.HalfBlock.lean ====
/-
  What the kernel computes for one half block, entry by entry.

  The body takes 256 rows `v` of the input block, the whole weight `w` (64 rows) and the bias as a one-row matrix
  `b`. Its product contracts the columns of `v` with the columns of `w` — row against row, which is `v·wᵀ` — into a
  zero accumulator, so entry `(p, q)` is `0 + Σ_k v[p,k] · w[q,k] = Σ_k v[p,k] · w[q,k]` (`0 + s = s` for every extended
  real `s`). The bias row is broadcast down the 256 rows and added: entry `(p, q)` gains `b[0,q]`. Together that is
  the entry of `AffineRows.rows v w (b's row)`.
-/
import proofs.«162816_g17729624998151_cont_sun_m_218_23_alg».proof.Proof.Gen.KernelIdeal.Skeleton
import proofs.«162816_g17729624998151_cont_sun_m_218_23_alg».proof.Proof.AffineRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The left operand's row coordinate at output `i` is the output's row, whatever the contraction index … -/
theorem lhs_row (i : S256x64.Idx) (κ : dot_S256x4096_S64x4096_S256x64_1_1_0_0_n_n.contr.Idx) : (dot_S256x4096_S64x4096_S256x64_1_1_0_0_n_n.lhsIdx i κ 0).val = (i 0).val := by
  unfold DotDims.lhsIdx
  rw [dif_neg (show ¬(0 : Fin S256x4096.rank) ∈ dot_S256x4096_S64x4096_S256x64_1_1_0_0_n_n.lhsBatch by decide),
    dif_pos (show (0 : Fin S256x4096.rank) ∈ dot_S256x4096_S64x4096_S256x64_1_1_0_0_n_n.lhsNonContracting by decide)]
  rfl
/-- … and its column coordinate is the contraction index's one coordinate. -/
theorem lhs_col (i : S256x64.Idx) (κ : dot_S256x4096_S64x4096_S256x64_1_1_0_0_n_n.contr.Idx) : (dot_S256x4096_S64x4096_S256x64_1_1_0_0_n_n.lhsIdx i κ 1).val = (κ ⟨0, by decide⟩).val :=
  dot_S256x4096_S64x4096_S256x64_1_1_0_0_n_n.lhsIdx_val_of_single rfl i κ
/-- The right operand's ROW coordinate at output `i` is the output's COLUMN: the weight is read row `q`, not column `q` … -/
theorem rhs_row (i : S256x64.Idx) (κ : dot_S256x4096_S64x4096_S256x64_1_1_0_0_n_n.contr.Idx) : (dot_S256x4096_S64x4096_S256x64_1_1_0_0_n_n.rhsIdx i κ 0).val = (i 1).val := by
  unfold DotDims.rhsIdx
  rw [dif_neg (show ¬(0 : Fin S64x4096.rank) ∈ dot_S256x4096_S64x4096_S256x64_1_1_0_0_n_n.rhsBatch by decide),
    dif_pos (show (0 : Fin S64x4096.rank) ∈ dot_S256x4096_S64x4096_S256x64_1_1_0_0_n_n.rhsNonContracting by decide)]
  rfl
/-- … and its column coordinate is the contraction index's one coordinate. -/
theorem rhs_col (i : S256x64.Idx) (κ : dot_S256x4096_S64x4096_S256x64_1_1_0_0_n_n.contr.Idx) : (dot_S256x4096_S64x4096_S256x64_1_1_0_0_n_n.rhsIdx i κ 1).val = (κ ⟨0, by decide⟩).val :=
  dot_S256x4096_S64x4096_S256x64_1_1_0_0_n_n.rhsIdx_val_of_single rfl i κ

/-- The half block's product into a zero accumulator, at `(p, q)`: row `p` of `v` against row `q` of `w`. -/
theorem product_apply (v : FVec Ideal S256x4096 .f32) (w : FVec Ideal S64x4096 .f32) (p : Fin 256) (q : Fin 64) :
    matmul (F := Ideal) dot_S256x4096_S64x4096_S256x64_1_1_0_0_n_n none v w (constant (F := Ideal) S256x64 .f32 0x00000000#32) (ix2 p q)
      = ∑ k : Fin 4096, v (ix2 p k) * w (ix2 q k) := by
  simp only [matmul]
  rw [Ideal.matmul_constant_zero_apply, ← Equiv.sum_comp (contrEquiv1 dot_S256x4096_S64x4096_S256x64_1_1_0_0_n_n 4096 rfl rfl).symm]
  refine Finset.sum_congr rfl fun k _ => ?_
  have hk := contrEquiv1_symm_val dot_S256x4096_S64x4096_S256x64_1_1_0_0_n_n 4096 rfl rfl k
  have el : dot_S256x4096_S64x4096_S256x64_1_1_0_0_n_n.lhsIdx (ix2 p q) ((contrEquiv1 dot_S256x4096_S64x4096_S256x64_1_1_0_0_n_n 4096 rfl rfl).symm k) = ix2 p k :=
    funext fun a => Fin.ext (by
      match a with
      | ⟨0, _⟩ => exact lhs_row _ _
      | ⟨1, _⟩ => exact (lhs_col _ _).trans hk)
  have er : dot_S256x4096_S64x4096_S256x64_1_1_0_0_n_n.rhsIdx (ix2 p q) ((contrEquiv1 dot_S256x4096_S64x4096_S256x64_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- THE HALF BLOCK'S PAYLOAD at `(p, q)` is the entry of `v·wᵀ + b's row`. -/
theorem half_apply (w : FVec Ideal S64x4096 .f32) (b : FVec Ideal S1x64 .f32) (v : FVec Ideal S256x4096 .f32)
    (p : Fin 256) (q : Fin 64) :
    k0_pay2 (F := Ideal) w b v (ix2 p q) = Cert.AffineRows.entry v w (fun n => b (ix2 (0 : Fin 1) n)) p q := by
  unfold k0_pay2 k0_pay1 Cert.AffineRows.entry
  show matmul (F := Ideal) dot_S256x4096_S64x4096_S256x64_1_1_0_0_n_n none v w (constant (F := Ideal) S256x64 .f32 0x00000000#32) (ix2 p q)
      + broadcastTo S256x64 (shapeCast S1x64 b shapeCasts_S1x64_S1x64) broadcasts_S1x64_S256x64 (ix2 p q) = _
  refine congrArg₂ (· + ·) (product_apply v w p q) ?_
  refine (broadcastTo_1b_ab_apply _ _ p q).trans ?_
  rw [shapeCast_self]

/-- The second half's payload is the same function of its operands. -/
theorem second_half_eq (w : FVec Ideal S64x4096 .f32) (b : FVec Ideal S1x64 .f32) (v : FVec Ideal S256x4096 .f32) :
    k0_pay3 (F := Ideal) w b v = k0_pay2 (F := Ideal) w b v := rfl

end Cert.KernelIdeal.Hand

end
-- ==== Proof.BlockRows.lean ====
/-
  What the body leaves in the output block: the 512-row block of the affine map.

  The body stores twice into its 512 × 64 output block: rows 0 … 255 from the first 256 rows of the input block, rows
  256 … 511 from the last 256 rows, each the half block's payload of its rows, the whole weight and the bias row. An
  entry of the affine map depends on one row of the input only, so the payload of rows `o … o + 255` is rows
  `o … o + 255` of the affine map of the whole input block (`half_piece`, by `AffineRows.rows_band`). The two stores
  tile the block, so together they leave the affine map of the input block, the weight and the bias row (`block_rows`).
-/
import proofs.«162816_g17729624998151_cont_sun_m_218_23_alg».proof.Proof.Gen.KernelIdeal.Frame
import proofs.«162816_g17729624998151_cont_sun_m_218_23_alg».proof.Proof.HalfBlock
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The pair of zero offsets is the constant zero function: a store or load from there of the buffer's own extents is whole. -/
theorem zero_offsets : (![0, 0] : Fin 2 → Nat) = fun _ => 0 := funext fun a => by fin_cases a <;> rfl

/-- ONE STORE: the payload of the 256 rows of the input block from row `o`, read at an entry of its rectangle, is the
    affine map of the whole input block at that entry's place in the output block. -/
theorem half_piece (o : Nat) (ho : o + 256 ≤ 512)
    (inbx : ∀ a, (![o, 0] : Fin 2 → Nat) a + S256x4096.size a ≤ S512x4096.size a)
    (inbo : ∀ a, (![o, 0] : Fin 2 → Nat) a + S256x64.size a ≤ S512x64.size a)
    (x0 : FVec Ideal S512x4096 .f32) (x1 : FVec Ideal S64x4096 .f32) (x2 : FVec Ideal S1x64 .f32) (y : S256x64.Idx) :
    k0_pay2 (F := Ideal) x1 x2 (View.ld x0 (Rect.unit (s := S512x4096) ![o, 0] S256x4096.size inbx)) y
      = Cert.AffineRows.rows x0 x1 (fun n => x2 (ix2 (0 : Fin 1) n))
          ((Rect.unit (s := S512x64) ![o, 0] S256x64.size inbo).emb y) := by
  obtain ⟨p, q, rfl⟩ : ∃ (p : Fin 256) (q : Fin 64), y = ix2 p q := ⟨y 0, y 1, eq_ix2 y⟩
  have hp : o + p.val < 512 := by have := p.isLt; omega
  have he : (Rect.unit (s := S512x64) ![o, 0] S256x64.size inbo).emb (ix2 p q) = ix2 (⟨o + p.val, hp⟩ : Fin 512) q :=
    funext fun a => Fin.ext (by
      match a with
      | ⟨0, _⟩ => show o + 1 * p.val = o + p.val; omega
      | ⟨1, _⟩ => show 0 + 1 * q.val = q.val; omega)
  rw [he]
  refine (half_apply x1 x2 _ p q).trans ?_
  refine (Cert.AffineRows.rows_ix2 _ _ _ p q).symm.trans
    (Cert.AffineRows.rows_band x0 _ x1 _ o p hp (fun k => ?_) q)
  show x0 ((Rect.unit (s := S512x4096) ![o, 0] S256x4096.size inbx).toLoadRect.idx (ix2 p k)) = _
  refine congrArg x0 (funext fun a => Fin.ext ?_)
  match a with
  | ⟨0, _⟩ => show o + 1 * p.val = o + p.val; omega
  | ⟨1, _⟩ => show 0 + 1 * k.val = k.val; omega

/-- THE OUTPUT BLOCK after the body is the affine map of the input block, the weight and the bias row. -/
theorem block_rows (x0 : FVec Ideal S512x4096 .f32) (x1 : FVec Ideal S64x4096 .f32) (x2 : FVec Ideal S1x64 .f32) :
    out0_3 (F := Ideal) x0 x1 x2 = Cert.AffineRows.rows x0 x1 (fun n => x2 (ix2 (0 : Fin 1) n)) := by
  funext y
  unfold out0_3
  simp only [View.ld_unit_zero (S := S64x4096) zero_offsets, View.ld_unit_zero (S := S1x64) zero_offsets]
  refine View.canon_apply_of_pieces (Val := Elt Ideal) (S := S512x64) (e := .f32)
    (Cert.AffineRows.rows x0 x1 (fun n => x2 (ix2 (0 : Fin 1) n))) _ ?_ y (cover0_3 _ _ y)
  intro pc hpc x
  simp only [List.mem_cons, List.not_mem_nil, or_false] at hpc
  rcases hpc with rfl | rfl
  · exact half_piece 256 (by decide) inb_S512x4096_S256x4096_256_0 inb_S512x64_S256x64_256_0 x0 x1 x2 x
  · exact half_piece 0 (by decide) inb_S512x4096_S256x4096_0_0 inb_S512x64_S256x64_0_0 x0 x1 x2 x

end Cert.KernelIdeal.Hand

end
-- ==== Proof.ArrayRows.lean ====
/-
  From blocks to the array: the kernel's result is the affine map of its arguments.

  The grid has 8 points. At point `t` the input window holds rows `512 t … 512 t + 511` of the input, the weight and
  the bias windows hold their arrays whole, and the output window writes back rows `512 t … 512 t + 511` of the
  result. The bias array the region finds is the bias argument recast as one row, so its row reads the argument
  (`bias_row`). By `block_rows` the block written back at point `t` is the affine map of the input's rows
  `512 t …`, the weight and the bias; an entry depends on one input row only (`AffineRows.rows_band`), so this is rows
  `512 t …` of the affine map of the whole input (`flushed_rows`). Row `r` lies in the block of point `r / 512`, so the
  8 blocks cover the result (`covered`), which therefore ends holding the affine map of the arguments (`final_rows`).
-/
import proofs.«162816_g17729624998151_cont_sun_m_218_23_alg».proof.Proof.Gen.KernelIdeal.Value
import proofs.«162816_g17729624998151_cont_sun_m_218_23_alg».proof.Proof.BlockRows
import Idealize.ShloMosaic.Lib.Pipeline.Value
import Idealize.ShloMosaic.Lib.ValueLayout
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The affine map of the three argument arrays as launched: `input·weightᵀ + bias`. -/
def result (c : Dev nD) : S4096x64.Idx → EReal :=
  Cert.AffineRows.rows (m ((c : Thread nD τ).loc main_arg0) : S4096x4096.Idx → EReal)
    (m ((c : Thread nD τ).loc main_arg1) : S64x4096.Idx → EReal)
    (fun n => (m ((c : Thread nD τ).loc main_arg2) : S64.Idx → EReal) (ix1 n))

/-- The block index maps over the 8 grid points: point `t` takes block `t` of the input's rows and of the result's rows;
    the weight and the bias are staged whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias array the region finds is the bias argument recast as one row: its row at `n` is the argument at `n`. -/
theorem bias_row (c : Dev nD) (n : Fin 64) :
    (V m c main_call0_v0 : S1x64.Idx → EReal) (ix2 (0 : Fin 1) n)
      = (m ((c : Thread nD τ).loc main_arg2) : S64.Idx → EReal) (ix1 n) := by
  have e : (V m c main_call0_v0 : S1x64.Idx → EReal)
      = shapeCast S1x64 (m ((c : Thread nD τ).loc main_arg2) : S64.Idx → EReal) shapeCasts_S64_S1x64 := by
    dsimp only [Gen.V, Gen.hostOps0]; after_results; rfl
  rw [e]
  exact shapeCast_a_1a_apply _ _ (0 : Fin 1) n

/-- The input block at point `t` holds rows `512 t …` of the input as launched. -/
theorem input_block (c : Dev nD) (t : Fin cfg0.N) (p : Fin 512) (k : Fin 4096) (h : 512 * t.val + p.val < 4096) :
    (iblk m c 0 t : S512x4096.Idx → EReal) (ix2 p k)
      = (m ((c : Thread nD τ).loc main_arg0) : S4096x4096.Idx → EReal) (ix2 ⟨512 * t.val + p.val, h⟩ k) := by
  obtain ⟨e0, e1, -⟩ := index_facts t
  rw [← V_main_arg0 m c]
  unfold iblk
  rw [View.read_apply]
  show V m c main_arg0 _ = V m c main_arg0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 4096 + 1 * k.val = k.val; rw [e1]; omega

/-- The weight block at every point is the weight as launched. -/
theorem weight_block (c : Dev nD) (t : Fin cfg0.N) :
    (iblk m c 1 t : S64x4096.Idx → EReal) = (m ((c : Thread nD τ).loc main_arg1) : S64x4096.Idx → EReal) := by
  obtain ⟨-, -, e2, e3, -⟩ := index_facts t
  rw [← V_main_arg1 m c]
  funext y
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 4096 + 1 * (y 1).val = (y 1).val; rw [e3]; omega

/-- The bias block at every point is the one-row bias array the region finds. -/
theorem bias_block (c : Dev nD) (t : Fin cfg0.N) :
    (iblk m c 2 t : S1x64.Idx → EReal) = (V m c main_call0_v0 : S1x64.Idx → EReal) := by
  obtain ⟨-, -, -, -, e4, e5, -⟩ := index_facts t
  funext y
  unfold iblk
  rw [View.read_apply]
  show V m c main_call0_v0 _ = V m c main_call0_v0 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- WHAT POINT `t` WRITES BACK is block `t` of the affine map of the arguments. -/
theorem flushed_rows (c : Dev nD) (t : Fin cfg0.N) :
    (dats m 0 c).flushed 3 t = ((cfg0.win 3).blk t).view.read (Elt Ideal) (result m c) := by
  have hN : cfg0.N = 8 := N_0
  obtain ⟨-, -, -, -, -, -, e6, e7⟩ := index_facts t
  rw [Cert.KernelIdeal.Value.flushed3, block_rows, weight_block, bias_block]
  funext y
  obtain ⟨p, q, rfl⟩ : ∃ (p : Fin 512) (q : Fin 64), y = ix2 p q := ⟨y 0, y 1, eq_ix2 y⟩
  have hp : 512 * t.val + p.val < 4096 := by have := t.isLt; have := p.isLt; omega
  have hy : ((cfg0.win 3).blk t).view.emb (ix2 p q) = ix2 (⟨512 * t.val + p.val, hp⟩ : Fin 4096) q :=
    funext fun a => Fin.ext (by
      match a with
      | ⟨0, _⟩ => show win0_3.index t (0 : Fin 2) * 512 + 1 * p.val = 512 * t.val + p.val; rw [e6]; omega
      | ⟨1, _⟩ => show win0_3.index t (1 : Fin 2) * 64 + 1 * q.val = q.val; rw [e7]; omega)
  show Cert.AffineRows.rows (iblk m c 0 t : S512x4096.Idx → EReal) _ _ (ix2 p q)
      = result m c (((cfg0.win 3).blk t).view.emb (ix2 p q))
  rw [hy]
  unfold result
  refine (Cert.AffineRows.rows_band _ _ _ _ (512 * t.val) p hp (fun k => input_block m c t p k hp) q).trans ?_
  rw [Cert.AffineRows.rows_ix2, Cert.AffineRows.rows_ix2]
  exact Cert.AffineRows.entry_congr (fun _ => rfl) (fun _ => rfl) (bias_row m c q)

/-- Every entry of the result lies in some point's block: row `r` in the block of point `r / 512`. -/
theorem covered (i : S4096x64.Idx) :
    ∃ t : Fin cfg0.N, (cfg0.win 3).flush t = true ∧ i ∈ ((cfg0.win 3).blk t).view.set := by
  have hN : cfg0.N = 8 := N_0
  have hi0 : (i 0).val < 4096 := (i 0).isLt
  have hi1 : (i 1).val < 64 := (i 1).isLt
  obtain ⟨t, ht⟩ : ∃ t : Fin cfg0.N, t.val = (i 0).val / 512 := ⟨⟨(i 0).val / 512, by rw [hN]; omega⟩, rfl⟩
  obtain ⟨-, -, -, -, -, -, e6, e7⟩ := index_facts t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 64 ≤ (i 1).val ∧ (i 1).val < win0_3.index t (1 : Fin 2) * 64 + 64
    rw [e7]; omega

/-- THE RESULT ARRAY after the run is the affine map of the arguments. -/
theorem final_rows (c : Dev nD) : (dats m 0 c).arrAt 3 cfg0.N = result m c :=
  (dats m 0 c).arrAt_eq_of_cover 3 (result m c) (fun t _ => flushed_rows m c t) covered

/-- The kernel's run, read: the result array at the affine map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_rows m c), (h c).2⟩)
    (Cert.KernelIdeal.Value.run_blocks m ρ)

end Cert.KernelIdeal.Hand

end
-- ==== Proof.lean ====
/-
  A linear layer with bias, `input·weightᵀ + bias` (4096 × 4096 input, 64 × 4096 weight, 64 biases), computed by a
  kernel that walks the input's rows in 8 blocks of 512 and each block in two halves of 256, against the same map
  written as one transposed product and a broadcast sum.

  Over the extended reals both programs give, at row `r` and column `n`,
      Σ_k input[r,k] · weight[n,k] + bias[n]
  (`AffineRows.rows`). The reference: the transposed weight at `(k, n)` is the weight at `(n, k)`, the product's entry
  is that sum, the bias broadcast down the rows reads `bias[n]` (`ReferenceRows`). The kernel: the half block's product
  contracts the columns of its 256 input rows with the columns of the weight — row against row — into a zero
  accumulator, and `0 + s = s` for every extended real (`HalfBlock`); an entry depends on one input row only, so the
  two halves make the 512-row block (`BlockRows`) and the 8 blocks, block `t` holding rows `512 t …`, make the array
  (`ArrayRows`); the bias reaches the kernel recast as one row, whose entry `n` is `bias[n]`. The two sums run over
  the same index in the same order, so no rearrangement and no finiteness of the inputs is used: the precondition is
  never opened.

  The three frames are the generated ones (the reference's is its generated run with the result dropped); the
  idealization rewrote nothing, so there is nothing to preserve.
-/
import proofs.«162816_g17729624998151_cont_sun_m_218_23_alg».proof.Defs
import proofs.«162816_g17729624998151_cont_sun_m_218_23_alg».proof.Proof.Gen.Kernel
import proofs.«162816_g17729624998151_cont_sun_m_218_23_alg».proof.Proof.Gen.Kernel.Frame
import proofs.«162816_g17729624998151_cont_sun_m_218_23_alg».proof.Proof.Gen.KernelIdeal
import proofs.«162816_g17729624998151_cont_sun_m_218_23_alg».proof.Proof.Gen.KernelIdeal.Frame
import proofs.«162816_g17729624998151_cont_sun_m_218_23_alg».proof.Proof.Gen.KernelIdeal.Value
import proofs.«162816_g17729624998151_cont_sun_m_218_23_alg».proof.Proof.Gen.ReferenceIdeal
import proofs.«162816_g17729624998151_cont_sun_m_218_23_alg».proof.Proof.Gen.ReferenceIdeal.Run
import proofs.«162816_g17729624998151_cont_sun_m_218_23_alg».proof.Proof.Gen.ReferenceIdeal.Read
import proofs.«162816_g17729624998151_cont_sun_m_218_23_alg».proof.Proof.Gen.Pre_finite_inputs
import proofs.«162816_g17729624998151_cont_sun_m_218_23_alg».proof.Proof.ReferenceRows
import proofs.«162816_g17729624998151_cont_sun_m_218_23_alg».proof.Proof.ArrayRows
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `input·weightᵀ + bias` of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Hand.reference_rows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))).trans ?_
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
